-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩

abbrev nBuf : Space → Nat
  | .hbm => 6
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S2000x128, .f32⟩
  | .local _ .vmem, ⟨6, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S128x128_S128x128_S128x128_1_0_0_1_n_n_wf : DotDims.WF S128x128 S128x128 S128x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩

abbrev nBuf : Space → Nat
  | .hbm => 9
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S100000x128, .f32⟩
  | .hbm, ⟨6, _⟩ => ⟨S1x128, .f32⟩
  | .hbm, ⟨7, _⟩ => ⟨S100000x128, .f32⟩
  | .hbm, ⟨8, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.ChainLaw.lean ====
/-
  The two ways of bracketing a product of three matrices, and the law that joins them.

  For a row-major array `x` of 100000 rows and 128 columns, two 128 × 128 matrices `W1` and `adj`, and a vector `b` of
  128 entries, `fusedProduct` is `x · (W1 · adj) + b` — first the 128 × 128 product, then one product with the rows of
  `x` — and `chainedProduct` is `(x · W1) · adj + b` — the rows of `x` through `W1`, then through `adj`. Entry `(i, l)`
  of the first is `∑ j, x i j * (∑ k, W1 j k * adj k l) + b l`, of the second `∑ k, (∑ j, x i j * W1 j k) * adj k l + b l`.

  Over the reals the two double sums are equal: distribute each product over the inner sum, exchange the two sums, and
  regroup each triple product (`sum_mul_sum_assoc`). On the extended reals distributivity fails at the infinities, so the
  law is stated for entries that are real numbers (`IsReal`): the real witnesses are chosen, the coercion is pushed out of
  the products and the sums, and the real law applies (`ereal_sum_mul_sum_assoc`, `fused_eq_chained`).
-/
import Idealize.ShloMosaic.PureOps.Ideal
import Idealize.ShloMosaic.Lib.ValueIdx
import Mathlib.Tactic.Ring

noncomputable section

open scoped BigOperators

namespace Cert.ProductChain

open Idealize.ShloMosaic Idealize.ShloMosaic.ValueIdx

/-- Every entry of an extended-real array is a real number. -/
def IsReal {ι : Type} (f : ι → EReal) : Prop := ∀ i, ∃ r : ℝ, f i = (r : EReal)

/-- Over the reals: `∑ j, a j * (∑ k, w j k * d k) = ∑ k, (∑ j, a j * w j k) * d k`. -/
theorem sum_mul_sum_assoc {ι κ : Type} [Fintype ι] [Fintype κ] (a : ι → ℝ) (w : ι → κ → ℝ) (d : κ → ℝ) :
    ∑ j, a j * ∑ k, w j k * d k = ∑ k, (∑ j, a j * w j k) * d k := by
  simp only [Finset.mul_sum, Finset.sum_mul]
  rw [Finset.sum_comm]
  exact Finset.sum_congr rfl fun k _ => Finset.sum_congr rfl fun j _ => by ring

/-- The coercion of the reals into the extended reals commutes with a finite sum. -/
theorem coe_sum {α : Type} (s : Finset α) (f : α → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The same law on the extended reals, for arrays whose entries are all real. -/
theorem ereal_sum_mul_sum_assoc {ι κ : Type} [Fintype ι] [Fintype κ] (a : ι → EReal) (w : ι → κ → EReal) (d : κ → EReal)
    (ha : IsReal a) (hw : ∀ j, IsReal (w j)) (hd : IsReal d) :
    ∑ j, a j * ∑ k, w j k * d k = ∑ k, (∑ j, a j * w j k) * d k := by
  choose a' ha using ha
  choose w' hw using hw
  choose d' hd using hd
  simp only [ha, hw, hd, ← EReal.coe_mul, ← coe_sum]
  exact congrArg _ (sum_mul_sum_assoc a' w' d')

/-- `x · (W1 · adj) + b`, entry by entry. -/
def fusedProduct (x : (⟨2, ![100000, 128]⟩ : Shape).Idx → EReal) (adj W1 : (⟨2, ![128, 128]⟩ : Shape).Idx → EReal)
    (b : (⟨1, ![128]⟩ : Shape).Idx → EReal) : (⟨2, ![100000, 128]⟩ : Shape).Idx → EReal :=
  fun i => (∑ j : Fin 128, x (ix2 (i 0) j) * ∑ k : Fin 128, W1 (ix2 j k) * adj (ix2 k (i 1))) + b (ix1 (i 1))

/-- `(x · W1) · adj + b`, entry by entry. -/
def chainedProduct (x : (⟨2, ![100000, 128]⟩ : Shape).Idx → EReal) (adj W1 : (⟨2, ![128, 128]⟩ : Shape).Idx → EReal)
    (b : (⟨1, ![128]⟩ : Shape).Idx → EReal) : (⟨2, ![100000, 128]⟩ : Shape).Idx → EReal :=
  fun i => (∑ k : Fin 128, (∑ j : Fin 128, x (ix2 (i 0) j) * W1 (ix2 j k)) * adj (ix2 k (i 1))) + b (ix1 (i 1))

/-- The two bracketings agree when the three matrices hold real numbers (the bias may be any extended real: it is
    added last on both sides). -/
theorem fused_eq_chained (x : (⟨2, ![100000, 128]⟩ : Shape).Idx → EReal) (adj W1 : (⟨2, ![128, 128]⟩ : Shape).Idx → EReal)
    (b : (⟨1, ![128]⟩ : Shape).Idx → EReal) (hx : IsReal x) (hadj : IsReal adj) (hW1 : IsReal W1) :
    fusedProduct x adj W1 b = chainedProduct x adj W1 b := by
  funext i
  unfold fusedProduct chainedProduct
  exact congrArg (· + b (ix1 (i 1)))
    (ereal_sum_mul_sum_assoc (fun j : Fin 128 => x (ix2 (i 0) j)) (fun (j k : Fin 128) => W1 (ix2 j k))
      (fun k : Fin 128 => adj (ix2 k (i 1))) (fun j => hx _) (fun j k => hW1 _) (fun k => hadj _))

end Cert.ProductChain

end
-- ==== Proof.ReferenceChain.lean ====
/-
  The reference program, read entry by entry, is the chained product `(x · W1) · adj + b`.

  Its five host operations are two matrix products, two broadcasts that spread the bias over the rows, and an addition.
  Entry `(r, c)` of the first product is `∑ j, x r j * W1 j c`; entry `(r, c)` of the second is the sum over `k` of the first
  product's entry `(r, k)` times `adj k c`; the broadcast bias at `(r, c)` is `b c`. The index maps the generated reading
  lemmas compose are identified with indices built from coordinates, and the two sides are then the same term.
-/
import proofs.«129308_g77034533421747_cont_sun_c4_52_3_alg».proof.Proof.Gen.ReferenceIdeal.Read
import proofs.«129308_g77034533421747_cont_sun_c4_52_3_alg».proof.Proof.ChainLaw

noncomputable section

open scoped BigOperators

namespace Cert.ReferenceIdeal.Chain

open Cert.ReferenceIdeal Cert.ReferenceIdeal.Read Idealize.ShloMosaic Idealize.ShloMosaic.ValueIdx Cert.ProductChain

/-- The reference's result, as a function of its four arguments, is `chainedProduct` of them. -/
theorem stage_eq_chained (x : S100000x128.Idx → EReal) (adj W1 : S128x128.Idx → EReal) (b : S128.Idx → EReal) :
    val_main_v4 (F := Ideal) x adj W1 b = chainedProduct x adj W1 b := by
  funext i
  -- row `r` of `x` at column `j`, read through both products' left index maps
  have rowOfX : ∀ k j : Fin 128, lidx_main_v0 (lidx_main_v1 i k) j = ix2 (i 0) j := fun k j =>
    funext fun a => by match a with | ⟨0, _⟩ => rfl | ⟨1, _⟩ => rfl
  -- entry `(j, k)` of `W1`
  have entryOfW1 : ∀ k j : Fin 128, ridx_main_v0 (lidx_main_v1 i k) j = ix2 j k := fun k j =>
    funext fun a => by match a with | ⟨0, _⟩ => rfl | ⟨1, _⟩ => rfl
  -- entry `(k, c)` of `adj`
  have entryOfAdj : ∀ k : Fin 128, ridx_main_v1 i k = ix2 k (i 1) := fun k =>
    funext fun a => by match a with | ⟨0, _⟩ => rfl | ⟨1, _⟩ => rfl
  -- entry `c` of the bias
  have entryOfBias : idx_main_v2 (idx_main_v3 i) = ix1 (i 1) :=
    funext fun a => by match a with | ⟨0, _⟩ => rfl
  rw [val_main_v4_apply, val_main_v1_apply, val_main_v3_apply, val_main_v2_apply]
  simp only [val_main_v0_apply, rowOfX, entryOfW1, entryOfAdj, entryOfBias]
  rfl

end Cert.ReferenceIdeal.Chain

end
-- ==== Proof.BodyAt.lean ====
/-
  What one grid point's body stores, entry by entry.

  The body loads the two 128 × 128 matrices, a block of 2000 rows of `x` and the bias as one row; it forms the product of
  the two matrices into a zero accumulator, then the product of the row block with that, and adds the bias row spread over
  the 2000 rows. At the exact values a product into a zero accumulator is the plain sum over the one contracted axis of the
  operands' products: the contraction index is identified with its one coordinate `k : Fin 128`, the left operand is read
  at `(row, k)` and the right at `(k, column)` (`weights_apply`, `rows_apply`). So entry `(p, q)` of what is stored is
  `∑ j, xblock p j * (∑ k, W1 j k * adj k q) + bias 0 q` (`stored_apply`).
-/
import proofs.«129308_g77034533421747_cont_sun_c4_52_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The operand indices of the two products, coordinate by coordinate -/

theorem weights_lhs0 (i : S128x128.Idx) (q : dot_S128x128_S128x128_S128x128_1_0_0_1_n_n.contr.Idx) : (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem weights_lhs1 (i : S128x128.Idx) (q : dot_S128x128_S128x128_S128x128_1_0_0_1_n_n.contr.Idx) : (dot_S128x128_S128x128_S128x128_1_0_0_1_n_n.lhsIdx i q 1).val = (q ⟨0, by decide⟩).val :=
  dot_S128x128_S128x128_S128x128_1_0_0_1_n_n.lhsIdx_val_of_single rfl i q
theorem weights_rhs0 (i : S128x128.Idx) (q : dot_S128x128_S128x128_S128x128_1_0_0_1_n_n.contr.Idx) : (dot_S128x128_S128x128_S128x128_1_0_0_1_n_n.rhsIdx i q 0).val = (q ⟨0, by decide⟩).val :=
  dot_S128x128_S128x128_S128x128_1_0_0_1_n_n.rhsIdx_val_of_single rfl i q
theorem weights_rhs1 (i : S128x128.Idx) (q : dot_S128x128_S128x128_S128x128_1_0_0_1_n_n.contr.Idx) : (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

theorem rows_lhs0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem rows_lhs1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rows_rhs0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rows_rhs1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-! ## The two products at an entry -/

/-- The product of the two 128 × 128 matrices into a zero accumulator, at `(j, q)`: `∑ k, l j k * r k q`. -/
theorem weights_apply (l r : FVec Ideal S128x128 .f32) (j q : Fin 128) :
    matmul dot_S128x128_S128x128_S128x128_1_0_0_1_n_n none l r (constant (F := Ideal) S128x128 .f32 0x00000000#32) (ix2 j q)
      = ∑ k : Fin 128, l (ix2 j k) * r (ix2 k q) := by
  simp only [matmul]
  rw [Ideal.matmul_constant_zero_apply, ← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 j q) ((contrEquiv1 dot_S128x128_S128x128_S128x128_1_0_0_1_n_n 128 rfl rfl).symm k) = ix2 j k := funext fun a => Fin.ext (by
    match a with
    | ⟨0, _⟩ => exact weights_lhs0 _ _
    | ⟨1, _⟩ => exact (weights_lhs1 _ _).trans hk)
  have er : dot_S128x128_S128x128_S128x128_1_0_0_1_n_n.rhsIdx (ix2 j q) ((contrEquiv1 dot_S128x128_S128x128_S128x128_1_0_0_1_n_n 128 rfl rfl).symm k) = ix2 k q := funext fun a => Fin.ext (by
    match a with
    | ⟨0, _⟩ => exact (weights_rhs0 _ _).trans hk
    | ⟨1, _⟩ => exact weights_rhs1 _ _)
  rw [el, er]

/-- The product of a block of 2000 rows with a 128 × 128 matrix into a zero accumulator, at `(p, q)`: `∑ j, l p j * r j q`. -/
theorem rows_apply (l : FVec Ideal S2000x128 .f32) (r : FVec Ideal S128x128 .f32) (p : Fin 2000) (q : Fin 128) :
    matmul dot_S2000x128_S128x128_S2000x128_1_0_0_1_n_n none l r (constant (F := Ideal) S2000x128 .f32 0x00000000#32) (ix2 p q)
      = ∑ j : Fin 128, l (ix2 p j) * r (ix2 j q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact rows_lhs0 _ _
    | ⟨1, _⟩ => exact (rows_lhs1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rows_rhs0 _ _).trans hk
    | ⟨1, _⟩ => exact rows_rhs1 _ _)
  rw [el, er]

/-! ## The stored value at an entry -/

/-- Entry `(p, q)` of what the body stores, from its four loads: the row block `xs`, the matrices `w1` and `a`, and
    the bias row `bs`. -/
theorem stored_apply (w1 a : FVec Ideal S128x128 .f32) (xs : FVec Ideal S2000x128 .f32) (bs : FVec Ideal S1x128 .f32)
    (p : Fin 2000) (q : Fin 128) :
    k0_pay1 (F := Ideal) w1 a xs bs (ix2 p q)
      = (∑ j : Fin 128, xs (ix2 p j) * ∑ k : Fin 128, w1 (ix2 j k) * a (ix2 k q)) + bs (ix2 (0 : Fin 1) q) := by
  unfold k0_pay1
  rw [addf_apply, rows_apply, broadcastTo_1b_ab_apply, shapeCast_self]
  simp only [weights_apply]

end Cert.KernelIdeal.Body

end
-- ==== Proof.BlockRows.lean ====
/-
  From what each grid point writes back to the whole result array.

  The grid has 50 points. At point `t` the first window holds rows `2000 t … 2000 t + 1999` of `x`; the next two hold the
  whole of `W1` and of `adj`; the fourth holds the bias as the one row a reshape of `b` made before the region; the output
  window's block is rows `2000 t … 2000 t + 1999` of the result. Reading each input block where the output block's
  rectangle says, the value a point stores (`Body.stored_apply`) is, entry by entry, `fusedProduct` of the argument
  arrays at the array index of that entry (`writtenBack`). Row `r` of the result lies in the block of point `r / 2000`, so
  the 50 blocks cover the array (`covered`), and the array after the run is `fusedProduct` of the arguments (`result`, `run`).
-/
import proofs.«129308_g77034533421747_cont_sun_c4_52_3_alg».proof.Proof.Gen.KernelIdeal.Value
import proofs.«129308_g77034533421747_cont_sun_c4_52_3_alg».proof.Proof.ChainLaw
import proofs.«129308_g77034533421747_cont_sun_c4_52_3_alg».proof.Proof.BodyAt
import Idealize.ShloMosaic.Lib.Pipeline.Value
import Idealize.ShloMosaic.Lib.ValueLayout
import Idealize.ShloMosaic.Lib.StableHlo.Run

noncomputable section

open scoped BigOperators

namespace Cert.KernelIdeal.Rows

open Cert.KernelIdeal Cert.KernelIdeal.Gen Cert.KernelIdeal.Value Idealize.ShloMosaic Idealize.ShloMosaic.TcCoe Idealize.SL.Sem
open Idealize.ShloMosaic.ValueIdx Cert.ProductChain
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The printed index maps at every grid point: the row-block windows (0 and 4) are at block `(t, 0)`, the three
    whole-array windows at block `(0, 0)`. -/
theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks -/

/-- Entry `y` of the row block at point `t` is `x` at row `2000 t + y₀`, column `y₁`. -/
theorem rowBlock_apply (c : Dev nD) (t : Fin cfg0.N) (y : S2000x128.Idx) (k : S100000x128.Idx)
    (hk0 : (k 0).val = 2000 * t.val + (y 0).val) (hk1 : (k 1).val = (y 1).val) :
    (iblk m c 0 t : Vec Ideal S2000x128 .f32) y = (V m c main_arg0 : S100000x128.Idx → EReal) k := by
  obtain ⟨e0, e1, -⟩ := blockIndices t
  unfold iblk
  rw [View.read_apply]
  show V m c main_arg0 _ = V m c main_arg0 _
  congr 1
  funext a
  apply Fin.ext
  match a with
  | ⟨0, _⟩ => show win0_0.index t 0 * 2000 + 1 * (y 0).val = (k 0).val; rw [e0, hk0]; omega
  | ⟨1, _⟩ => show win0_0.index t 1 * 128 + 1 * (y 1).val = (k 1).val; rw [e1, hk1]; omega

/-- The second window's block is the whole of `W1`, at every point. -/
theorem w1Block (c : Dev nD) (t : Fin cfg0.N) :
    (iblk m c 1 t : Vec Ideal S128x128 .f32) = (V m c main_arg2 : S128x128.Idx → EReal) := by
  obtain ⟨-, -, e0, e1, -⟩ := blockIndices t
  funext y
  unfold iblk
  rw [View.read_apply]
  show V m c main_arg2 _ = V m c main_arg2 y
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- The third window's block is the whole of `adj`, at every point. -/
theorem adjBlock (c : Dev nD) (t : Fin cfg0.N) :
    (iblk m c 2 t : Vec Ideal S128x128 .f32) = (V m c main_arg1 : S128x128.Idx → EReal) := by
  obtain ⟨-, -, -, -, e0, e1, -⟩ := blockIndices t
  funext y
  unfold iblk
  rw [View.read_apply]
  show V m c main_arg1 _ = V m c main_arg1 y
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- The one host operation before the region reshapes the bias `b` to a single row. -/
theorem biasRow (c : Dev nD) :
    (V m c main_v0 : S1x128.Idx → EReal)
      = shapeCast S1x128 (m ((c : Thread nD τ).loc main_arg3) : S128.Idx → EReal) Facts₀.shapeCasts_S128_S1x128 := by
  dsimp only [Gen.V, Gen.hostOps0]
  after_results
  rfl

/-- Entry `(0, q)` of the fourth window's block is `b q`, at every point. -/
theorem biasBlock_apply (c : Dev nD) (t : Fin cfg0.N) (q : Fin 128) :
    (iblk m c 3 t : Vec Ideal S1x128 .f32) (ix2 (0 : Fin 1) q) = (m ((c : Thread nD τ).loc main_arg3) : S128.Idx → EReal) (ix1 q) := by
  obtain ⟨-, -, -, -, -, -, e0, e1, -⟩ := blockIndices t
  have whole : (iblk m c 3 t : Vec Ideal S1x128 .f32) = (V m c main_v0 : S1x128.Idx → EReal) := by
    funext y
    unfold iblk
    rw [View.read_apply]
    show V m c main_v0 _ = V m c main_v0 y
    congr 1
    funext a
    apply Fin.ext
    match a with
    | ⟨0, _⟩ => show win0_3.index t 0 * 1 + 1 * (y 0).val = (y 0).val; rw [e0]; omega
    | ⟨1, _⟩ => show win0_3.index t 1 * 128 + 1 * (y 1).val = (y 1).val; rw [e1]; omega
  rw [whole, biasRow, shapeCast_a_1a_apply]

/-! ## What a point writes back -/

/-- Point `t` writes back block `t` of `fusedProduct` of the arrays as the region finds them. -/
theorem writtenBack (c : Dev nD) (t : Fin cfg0.N) :
    (dats m 0 c).flushed 4 t = ((cfg0.win 4).blk t).view.read (Elt Ideal)
      (fusedProduct (V m c main_arg0) (V m c main_arg1) (V m c main_arg2) (m ((c : Thread nD τ).loc main_arg3))) := by
  obtain ⟨-, -, -, -, -, -, -, -, e8, e9⟩ := blockIndices t
  have ht : t.val < 50 := lt_of_lt_of_eq t.isLt N_0
  rw [flushed4]
  unfold out0_4
  rw [View.canon_unit_zero zeroOffsets]
  simp only [View.ld_unit_zero (S := S128x128) zeroOffsets, View.ld_unit_zero (S := S2000x128) zeroOffsets,
    View.ld_unit_zero (S := S1x128) zeroOffsets]
  funext y
  obtain ⟨p, q, rfl⟩ : ∃ (p : Fin 2000) (q : Fin 128), y = ix2 p q := ⟨y 0, y 1, eq_ix2 y⟩
  -- the array index of entry `(p, q)` of block `t`: row `2000 t + p`, column `q`
  have he : ((cfg0.win 4).blk t).view.emb (ix2 p q) = ix2 (⟨2000 * t.val + p.val, by omega⟩ : Fin 100000) q := by
    funext a
    apply Fin.ext
    match a with
    | ⟨0, _⟩ => show win0_4.index t 0 * 2000 + 1 * p.val = 2000 * t.val + p.val; rw [e8]; omega
    | ⟨1, _⟩ => show win0_4.index t 1 * 128 + 1 * q.val = q.val; rw [e9]; omega
  show k0_pay1 (F := Ideal) (iblk m c 1 t) (iblk m c 2 t) (iblk m c 0 t) (iblk m c 3 t) (ix2 p q)
    = fusedProduct _ _ _ _ (((cfg0.win 4).blk t).view.emb (ix2 p q))
  rw [he, w1Block, adjBlock]
  refine (Body.stored_apply _ _ _ _ p q).trans ?_
  unfold fusedProduct
  refine congrArg₂ (· + ·) (Finset.sum_congr rfl fun j _ => congrArg (· * _) ?_) (biasBlock_apply m c t q)
  exact rowBlock_apply m c t (ix2 p j) (ix2 (⟨2000 * t.val + p.val, by omega⟩ : Fin 100000) j) rfl rfl

/-! ## The cover, and the array after the run -/

/-- An index of the result array is in point `t`'s block iff each coordinate is in the block's range on its axis. -/
theorem mem_block (t : Fin cfg0.N) (i : S100000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v1).slice (win0_4.rect t)).set ↔ _
  rw [View.set_slice_whole, Rect.mem_set_unit]
  exact Iff.rfl

/-- Every index of the result array is in the block of the point that holds its row: point `r / 2000` for row `r`. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, htv⟩ : ∃ t : Fin cfg0.N, t.val = (i 0).val / 2000 :=
    ⟨⟨(i 0).val / 2000, lt_of_lt_of_eq (by omega) N_0.symm⟩, rfl⟩
  obtain ⟨-, -, -, -, -, -, -, -, e8, e9⟩ := blockIndices t
  refine ⟨t, flush0_4 t, ?_⟩
  rw [mem_block]
  intro a
  match a with
  | ⟨0, _⟩ =>
    show win0_4.index t 0 * 2000 ≤ (i 0).val ∧ (i 0).val < win0_4.index t 0 * 2000 + 2000
    rw [e8, htv]; omega
  | ⟨1, _⟩ =>
    show win0_4.index t 1 * 128 ≤ (i 1).val ∧ (i 1).val < win0_4.index t 1 * 128 + 128
    rw [e9]; omega

/-- The result array after the run is `fusedProduct` of the four argument arrays as launched. -/
theorem result (c : Dev nD) :
    (dats m 0 c).arrAt 4 cfg0.N = fusedProduct (m ((c : Thread nD τ).loc main_arg0)) (m ((c : Thread nD τ).loc main_arg1)) (m ((c : Thread nD τ).loc main_arg2)) (m ((c : Thread nD τ).loc main_arg3)) := by
  rw [(dats m 0 c).arrAt_eq_of_cover 4 _ (fun t _ => writtenBack m c t) covered, V_main_arg0, V_main_arg1, V_main_arg2]

/-- The kernel's run, read: the result array at `fusedProduct` of the arguments, the arguments unchanged. -/
theorem run : θ_run defs (onTc (τ := τ) (main (F := Ideal))) ⟨m, fun _ => 0, ρ⟩ fun r => ∀ c : Dev nD,
      r.2.mem ((c : Thread nD τ).loc main_v1) = fusedProduct (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result m c), (h c).2⟩) (run_blocks m ρ)

end Cert.KernelIdeal.Rows

end
-- ==== Proof.FiniteEntries.lean ====
/-
  The precondition read back: every entry of the four arguments is a real number.

  The printed precondition is the conjunction of four tests, one per argument: every entry's absolute value is below the
  word `0x7F800000`, which denotes `+∞`. A conjunction of one-bit words that is 1 has both words 1; a reduction by "and"
  over all axes that is 1 met a 1 at every entry; and an extended real `v` with `max v (-v) < ⊤` is neither `⊤` nor `⊥`, so
  it is the image of a real.
-/
import proofs.«129308_g77034533421747_cont_sun_c4_52_3_alg».proof.Pre_finite_inputs
import proofs.«129308_g77034533421747_cont_sun_c4_52_3_alg».proof.Proof.Gen.Pre_finite_inputs
import proofs.«129308_g77034533421747_cont_sun_c4_52_3_alg».proof.Proof.ChainLaw
import Idealize.ShloMosaic.Lib.ReduceAll
import Idealize.ShloMosaic.Lib.ValueIdx
import Idealize.ShloMosaic.PureOps.Ideal.Laws

noncomputable section

namespace Cert.Pre_finite_inputs.Entries

open Cert.Pre_finite_inputs Idealize.ShloMosaic Idealize.ShloMosaic.ValueIdx Cert.ProductChain

/-- The scalar shape has one index. -/
instance : Subsingleton S_.Idx := ⟨fun a b => funext fun d => d.elim0⟩

/-- The word `0x7F800000` denotes `+∞`. -/
theorem infinityWord : Ideal.ofBits .f32 0x7F800000#32 = (⊤ : EReal) := by simp [Ideal.ofBits, Ideal.ieee]

/-- An extended real whose absolute value compares below `+∞` is a real number. -/
theorem real_of_abs_lt_top (v : EReal) (h : Ideal.cmp .olt (max v (-v)) (Ideal.ofBits .f32 0x7F800000#32) = 1#1) :
    ∃ r : ℝ, v = (r : EReal) := by
  rw [infinityWord] at h
  induction v using EReal.rec with
  | bot => exfalso; simp [Ideal.cmp] at h
  | coe r => exact ⟨r, rfl⟩
  | top => exfalso; simp [Ideal.cmp] at h

/-- Under the precondition the three matrices and the bias hold real numbers. -/
theorem entries_real (x : FVec Ideal S100000x128 .f32) (adj W1 : FVec Ideal S128x128 .f32) (b : FVec Ideal S128 .f32)
    (h : fn (F := Ideal) x adj W1 b = fun _ => 1#1) : IsReal x ∧ IsReal adj ∧ IsReal W1 ∧ IsReal b := by
  have h0 := congrFun h ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_abs_lt_top _ (Host.reduce_andi_all _ _ _ _ ix0 h0' i)
  · exact real_of_abs_lt_top _ (Host.reduce_andi_all _ _ _ _ ix0 h1 i)
  · exact real_of_abs_lt_top _ (Host.reduce_andi_all _ _ _ _ ix0 h2 i)
  · exact real_of_abs_lt_top _ (Host.reduce_andi_all _ _ _ _ ix0 h3 i)

end Cert.Pre_finite_inputs.Entries

end
-- ==== Proof.lean ====
/-
  A graph-convolution layer `x · W1 · adj + b` over 100000 rows: the kernel against its reference, on the extended reals.

  The kernel walks the rows of `x` in 50 blocks of 2000. At every block it forms the 128 × 128 product `W1 · adj`, multiplies
  the row block by it and adds the bias: the result array is `x · (W1 · adj) + b` (`Rows.run`, over the generated run of the
  blocks: `ChainLaw` states the function, `BodyAt` reads the stored value at an entry, `BlockRows` goes from the blocks to
  the array). The reference multiplies the rows through `W1` and then through `adj`: `(x · W1) · adj + b`
  (`ReferenceChain`, over the generated run of the reference and its reading lemmas). The two are equal by the
  associativity of the matrix product, which rests on distributivity and therefore on the entries being real numbers: that
  is what the precondition gives (`FiniteEntries`). The bias is added last on both sides and is not constrained.

  The kernel's idealization rewrote no operation, so its ledger is empty; the three frames are the generated ones, the
  reference's being its generated run with the result dropped.
-/
import proofs.«129308_g77034533421747_cont_sun_c4_52_3_alg».proof.Defs
import proofs.«129308_g77034533421747_cont_sun_c4_52_3_alg».proof.Proof.Gen.Kernel
import proofs.«129308_g77034533421747_cont_sun_c4_52_3_alg».proof.Proof.Gen.Kernel.Skeleton
import proofs.«129308_g77034533421747_cont_sun_c4_52_3_alg».proof.Proof.Gen.Kernel.Launch
import proofs.«129308_g77034533421747_cont_sun_c4_52_3_alg».proof.Proof.Gen.Kernel.Points
import proofs.«129308_g77034533421747_cont_sun_c4_52_3_alg».proof.Proof.Gen.Kernel.Frame
import proofs.«129308_g77034533421747_cont_sun_c4_52_3_alg».proof.Proof.Gen.KernelIdeal
import proofs.«129308_g77034533421747_cont_sun_c4_52_3_alg».proof.Proof.Gen.KernelIdeal.Skeleton
import proofs.«129308_g77034533421747_cont_sun_c4_52_3_alg».proof.Proof.Gen.KernelIdeal.Launch
import proofs.«129308_g77034533421747_cont_sun_c4_52_3_alg».proof.Proof.Gen.KernelIdeal.Points
import proofs.«129308_g77034533421747_cont_sun_c4_52_3_alg».proof.Proof.Gen.KernelIdeal.Frame
import proofs.«129308_g77034533421747_cont_sun_c4_52_3_alg».proof.Proof.Gen.KernelIdeal.Value
import proofs.«129308_g77034533421747_cont_sun_c4_52_3_alg».proof.Proof.Gen.ReferenceIdeal
import proofs.«129308_g77034533421747_cont_sun_c4_52_3_alg».proof.Proof.Gen.ReferenceIdeal.Run
import proofs.«129308_g77034533421747_cont_sun_c4_52_3_alg».proof.Proof.Gen.ReferenceIdeal.Read
import proofs.«129308_g77034533421747_cont_sun_c4_52_3_alg».proof.Proof.Gen.Pre_finite_inputs
import proofs.«129308_g77034533421747_cont_sun_c4_52_3_alg».proof.Proof.ChainLaw
import proofs.«129308_g77034533421747_cont_sun_c4_52_3_alg».proof.Proof.ReferenceChain
import proofs.«129308_g77034533421747_cont_sun_c4_52_3_alg».proof.Proof.BodyAt
import proofs.«129308_g77034533421747_cont_sun_c4_52_3_alg».proof.Proof.BlockRows
import proofs.«129308_g77034533421747_cont_sun_c4_52_3_alg».proof.Proof.FiniteEntries
import Idealize.ShloMosaic.Adequacy
import Idealize.ShloMosaic.Init

noncomputable section

namespace Cert.Proof

open Idealize.ShloMosaic Idealize.SL.Sem Cert.ProductChain

/-- The word-level kernel runs and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs run; the kernel's result is `x · (W1 · adj) + b`, the reference's `(x · W1) · adj + b` of arguments that
    agree, and under the precondition the three matrices hold real numbers, where the two products are equal. -/
theorem algebraic : Cert.algebraic_KernelIdeal_ReferenceIdeal := by
  intro m ρ m' ρ' hpre hagree
  refine ⟨fun c => fusedProduct (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.KernelIdeal.Rows.run m ρ, ?_⟩
  refine (θ_run Cert.ReferenceIdeal.defs _ _).mono (fun _ h c => ⟨(h c).1.trans ?_, (h c).2⟩) (Cert.ReferenceIdeal.Value.run (F := Ideal) m' ρ')
  obtain ⟨hx, hadj, hW1, -⟩ := Cert.Pre_finite_inputs.Entries.entries_real _ _ _ _ (hpre c)
  rw [Cert.ReferenceIdeal.Read.val_main_v4_eq, Cert.ReferenceIdeal.Chain.stage_eq_chained, (hagree c).1, (hagree c).2.1, (hagree c).2.2.1, (hagree c).2.2.2]
  exact (fused_eq_chained _ _ _ _ hx hadj hW1).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
